-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x128 .f32) (main_arg3 : FVec F S128 .f32) (main_arg4 : FVec F S128x64 .f32) (main_arg5 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x128, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000, .f32⟩
  | .hbm, ⟨88, _⟩ => ⟨S850000, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x64, .f32⟩
  | .hbm, ⟨98, _⟩ => ⟨S850000x1, .f32⟩
  | .hbm, ⟨99, _⟩ => ⟨S850000x64, .f32⟩
  | .hbm, ⟨100, _⟩ => ⟨S850000x64, .f32⟩
  | .hbm, ⟨101, _⟩ => ⟨S_, .f32⟩
  | .hbm, ⟨102, _⟩ => ⟨S50000x64, .f32⟩
  | .hbm, ⟨103, _⟩ => ⟨S850000x1, .i32⟩
  | .hbm, ⟨104, _⟩ => ⟨S50000x64, .f32⟩
  | .hbm, ⟨105, _⟩ => ⟨S1x64, .f32⟩
  | .hbm, ⟨106, _⟩ => ⟨S50000x64, .f32⟩
  | .hbm, ⟨107, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  dot_S50000x256_S256x128_S50000x128_1_0_0_1_n_n_wf : DotDims.WF S50000x256 S256x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its result named.  The program is eight segments: three stretches of host
  operations (the graph's source and target lists with self loops, the degree vector and its inverse square root, the
  edge weights), the first matrix product on a grid of ten row blocks, two stretches (gather, scale, scatter-add,
  bias, the positive part), the second matrix product, and a last stretch (gather, scale, scatter-add, bias).
  Every weakly fair execution terminates without a fault; the result buffer then holds what the fold of the eight
  segments over the launch memory leaves at it (`W8`), and the six argument arrays are unchanged.
-/
import proofs.«129773_j22823456211322_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the eight segments from the launch memory: the last thread state holds every unscoped buffer at the
    last boundary's contents, read against the final state at the result buffer and at each argument. -/
theorem run_value : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.Layers.lean ====
/-
  The host side of the network as functions of the edge list and of a feature matrix.  With the self loops appended,
  `srcs e` and `dsts e` list the 850000 sources and targets; `deg e` counts the edges into each node (a scatter-add
  of ones), `dinv e` is `deg^(-1/2)` where the degree is positive and `0` elsewhere, and the weight of an edge is
  `dinv (src) · dinv (dst)`.  A layer gathers the rows of a transformed feature matrix `h` at the sources, scales
  each by its edge weight, sums them into the target rows and adds the bias: `layer128 e h b` for 128 columns
  (followed by the positive part, `relu128`), `layer64 e h b` for 64.  Both programs apply exactly these operations;
  they differ only in how `h` is computed.
-/
import proofs.«129773_j22823456211322_1_alg».proof.Proof.Gen.KernelIdeal

noncomputable section

namespace Cert.KernelIdeal.Layers

open Cert.KernelIdeal Idealize.ShloMosaic Idealize.ShloMosaic.TcCoe

variable {F : FTy → Type} [FloatOps F]

/-- Row `r` (0: the sources, 1: the targets) of the edge list, then the node numbers `0 … 49999` (the self loops). -/
def srcs (e : (⟨S2x800000, .i32⟩ : BufTy).Contents (Elt F)) : (⟨S850000, .i32⟩ : BufTy).Contents (Elt F) :=
  concatenate S850000 0 [⟨S800000, shapeCast S800000 (extractStridedSlice S1x800000 ![0, 0] e Gen.slices_S2x800000_S1x800000_0_0) Gen.shapeCasts_S1x800000_S800000⟩, ⟨S50000, iotaInDim S50000 32 0⟩] Gen.concatenates_S800000_S50000_S850000_d0
def dsts (e : (⟨S2x800000, .i32⟩ : BufTy).Contents (Elt F)) : (⟨S850000, .i32⟩ : BufTy).Contents (Elt F) :=
  concatenate S850000 0 [⟨S800000, shapeCast S800000 (extractStridedSlice S1x800000 ![1, 0] e Gen.slices_S2x800000_S1x800000_1_0) Gen.shapeCasts_S1x800000_S800000⟩, ⟨S50000, iotaInDim S50000 32 0⟩] Gen.concatenates_S800000_S50000_S850000_d0

/-- A list of node numbers as a column of gather indices, a negative number counted from the end. -/
def wrap (v : (⟨S850000, .i32⟩ : BufTy).Contents (Elt F)) : (⟨S850000x1, .i32⟩ : BufTy).Contents (Elt F) :=
  broadcastInDim S850000x1 ![0] Gen.bcast_S850000_S850000x1_0
    (select (cmpi .slt v (broadcastInDim S850000 ![] Gen.bcast_S_S850000 (constantI S_ 32 0#32)))
      (addi v (broadcastInDim S850000 ![] Gen.bcast_S_S850000 (constantI S_ 32 50000#32))) v)

/-- The number of edges into each node: ones summed at the targets. -/
def deg (e : (⟨S2x800000, .i32⟩ : BufTy).Contents (Elt F)) : (⟨S50000, .f32⟩ : BufTy).Contents (Elt F) :=
  Host.scatterAdd scatter_S50000_S850000x1_S850000_n_0_0_1 (broadcastInDim S50000 ![] Gen.bcast_S_S50000 (constant S_ .f32 0x00000000#32))
    (broadcastInDim S850000x1 ![0] Gen.bcast_S850000_S850000x1_0 (dsts (F := F) e)) (broadcastInDim S850000 ![] Gen.bcast_S_S850000 (constant S_ .f32 0x3F800000#32))

/-- `deg^(-1/2)` where the degree is positive, `0` elsewhere. -/
def dinv (e : (⟨S2x800000, .i32⟩ : BufTy).Contents (Elt F)) : (⟨S50000, .f32⟩ : BufTy).Contents (Elt F) :=
  select (cmpf .ogt (deg (F := F) e) (broadcastInDim S50000 ![] Gen.bcast_S_S50000 (constant S_ .f32 0x00000000#32))) (Host.rsqrt (deg (F := F) e))
    (broadcastInDim S50000 ![] Gen.bcast_S_S50000 (id (constant S_ .f32 0x00000000#32)))

/-- The weight of each edge: `dinv` at its source times `dinv` at its target. -/
def norm (e : (⟨S2x800000, .i32⟩ : BufTy).Contents (Elt F)) : (⟨S850000, .f32⟩ : BufTy).Contents (Elt F) :=
  mulf (Host.gather gather_S50000_S850000x1_S850000_n_0_n_n_0_1_1 (dinv (F := F) e) (wrap (F := F) (srcs (F := F) e)))
    (Host.gather gather_S50000_S850000x1_S850000_n_0_n_n_0_1_1 (dinv (F := F) e) (wrap (F := F) (dsts (F := F) e)))

/-- One aggregation over 128 columns: the rows of `h` at the sources, each scaled by its edge weight, summed into the
    target rows, plus the bias. -/
def layer128 (e : (⟨S2x800000, .i32⟩ : BufTy).Contents (Elt F)) (h : (⟨S50000x128, .f32⟩ : BufTy).Contents (Elt F)) (b : (⟨S128, .f32⟩ : BufTy).Contents (Elt F)) : (⟨S50000x128, .f32⟩ : BufTy).Contents (Elt F) :=
  addf (Host.scatterAdd scatter_S50000x128_S850000x1_S850000x128_1_0_0_1 (broadcastInDim S50000x128 ![] Gen.bcast_S_S50000x128 (constant S_ .f32 0x00000000#32))
      (broadcastInDim S850000x1 ![0] Gen.bcast_S850000_S850000x1_0 (dsts (F := F) e))
      (mulf (Host.gather gather_S50000x128_S850000x1_S850000x128_1_0_n_n_0_1_1128 h (wrap (F := F) (srcs (F := F) e)))
        (broadcastInDim S850000x128 ![0, 1] Gen.bcast_S850000x1_S850000x128_0_1 (broadcastInDim S850000x1 ![0] Gen.bcast_S850000_S850000x1_0 (norm (F := F) e)))))
    (broadcastInDim S50000x128 ![0, 1] Gen.bcast_S1x128_S50000x128_0_1 (broadcastInDim S1x128 ![1] Gen.bcast_S128_S1x128_1 b))

/-- The positive part, entry by entry. -/
def relu128 (x : (⟨S50000x128, .f32⟩ : BufTy).Contents (Elt F)) : (⟨S50000x128, .f32⟩ : BufTy).Contents (Elt F) :=
  maximumf x (broadcastInDim S50000x128 ![] Gen.bcast_S_S50000x128 (constant S_ .f32 0x00000000#32))

/-- The same aggregation over 64 columns. -/
def layer64 (e : (⟨S2x800000, .i32⟩ : BufTy).Contents (Elt F)) (h : (⟨S50000x64, .f32⟩ : BufTy).Contents (Elt F)) (b : (⟨S64, .f32⟩ : BufTy).Contents (Elt F)) : (⟨S50000x64, .f32⟩ : BufTy).Contents (Elt F) :=
  addf (Host.scatterAdd scatter_S50000x64_S850000x1_S850000x64_1_0_0_1 (broadcastInDim S50000x64 ![] Gen.bcast_S_S50000x64 (constant S_ .f32 0x00000000#32))
      (broadcastInDim S850000x1 ![0] Gen.bcast_S850000_S850000x1_0 (dsts (F := F) e))
      (mulf (Host.gather gather_S50000x64_S850000x1_S850000x64_1_0_n_n_0_1_164 h (wrap (F := F) (srcs (F := F) e)))
        (broadcastInDim S850000x64 ![0, 1] Gen.bcast_S850000x1_S850000x64_0_1 (broadcastInDim S850000x1 ![0] Gen.bcast_S850000_S850000x1_0 (norm (F := F) e)))))
    (broadcastInDim S50000x64 ![0, 1] Gen.bcast_S1x64_S50000x64_0_1 (broadcastInDim S1x64 ![1] Gen.bcast_S64_S1x64_1 b))

end Cert.KernelIdeal.Layers

end
-- ==== Proof.BlockProduct.lean ====
/-
  The two kernel bodies at an index, over the extended reals.  Each body loads a block of 5000 rows of the left
  matrix and the whole right matrix, rounds both to bf16 (the identity on exact values), and stores their product
  accumulated from zero.  Read at row `p`, column `c` of the block this is `∑ k, x (p, k) · w (k, c)`; the
  contraction index of the dimension numbers is re-indexed by its one coordinate.
-/
import proofs.«129773_j22823456211322_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Blocks

open Cert.KernelIdeal Cert.KernelIdeal.Gen Idealize.ShloMosaic Idealize.ShloMosaic.TcCoe

/-! ### The S5000x256 by S256x128 block product -/

theorem lhsA_0 (j : S5000x128.Idx) (q : dot_S5000x256_S256x128_S5000x128_1_0_0_1_n_n.contr.Idx) :
    (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhsA_1 (j : S5000x128.Idx) (q : dot_S5000x256_S256x128_S5000x128_1_0_0_1_n_n.contr.Idx) :
    (dot_S5000x256_S256x128_S5000x128_1_0_0_1_n_n.lhsIdx j q 1).val = (q ⟨0, by decide⟩).val :=
  dot_S5000x256_S256x128_S5000x128_1_0_0_1_n_n.lhsIdx_val_of_single rfl j q
theorem rhsA_0 (j : S5000x128.Idx) (q : dot_S5000x256_S256x128_S5000x128_1_0_0_1_n_n.contr.Idx) :
    (dot_S5000x256_S256x128_S5000x128_1_0_0_1_n_n.rhsIdx j q 0).val = (q ⟨0, by decide⟩).val :=
  dot_S5000x256_S256x128_S5000x128_1_0_0_1_n_n.rhsIdx_val_of_single rfl j q
theorem rhsA_1 (j : S5000x128.Idx) (q : dot_S5000x256_S256x128_S5000x128_1_0_0_1_n_n.contr.Idx) :
    (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Entry `(j 0, k)` of the left block. -/
abbrev lrowA (j : S5000x128.Idx) (k : Fin 256) : S5000x256.Idx := fun a => match a with
  | ⟨0, _⟩ => ⟨(j 0).val, (j 0).isLt⟩
  | ⟨1, _⟩ => ⟨k.val, k.isLt⟩
/-- Entry `(k, j 1)` of the right matrix. -/
abbrev rcolA (j : S5000x128.Idx) (k : Fin 256) : S256x128.Idx := fun a => match a with
  | ⟨0, _⟩ => ⟨k.val, k.isLt⟩
  | ⟨1, _⟩ => ⟨(j 1).val, (j 1).isLt⟩

/-- Over the extended reals the rounding of both operands to bf16 is the identity and the matrix unit's product into
    a zero accumulator is the plain sum: entry `j` of the block product is `∑ k, x (j 0, k) · w (k, j 1)`. -/
theorem k0_pay1_apply (x : Vec Ideal S5000x256 .f32) (w : Vec Ideal S256x128 .f32) (j : S5000x128.Idx) :
    k0_pay1 (F := Ideal) x w j = ∑ k : Fin 256, x (lrowA j k) * w (rcolA j k) := by
  unfold k0_pay1

  refine (Ideal.matmul_constant_zero_apply dot_S5000x256_S256x128_S5000x128_1_0_0_1_n_n none _ _ j).trans ?_
  rw [← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = lrowA j k := funext fun a => Fin.ext (by
    match a with
    | ⟨0, _⟩ => exact lhsA_0 _ _
    | ⟨1, _⟩ => exact (lhsA_1 _ _).trans hk)
  have er : dot_S5000x256_S256x128_S5000x128_1_0_0_1_n_n.rhsIdx j ((ValueIdx.contrEquiv1 dot_S5000x256_S256x128_S5000x128_1_0_0_1_n_n 256 rfl rfl).symm k) = rcolA j k := funext fun a => Fin.ext (by
    match a with
    | ⟨0, _⟩ => exact (rhsA_0 _ _).trans hk
    | ⟨1, _⟩ => exact rhsA_1 _ _)
  rw [el, er]
  rfl

/-! ### The S5000x128 by S128x64 block product -/

theorem lhsB_0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhsB_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem rhsB_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem rhsB_1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry `(j 0, k)` of the left block. -/
abbrev lrowB (j : S5000x64.Idx) (k : Fin 128) : S5000x128.Idx := fun a => match a with
  | ⟨0, _⟩ => ⟨(j 0).val, (j 0).isLt⟩
  | ⟨1, _⟩ => ⟨k.val, k.isLt⟩
/-- Entry `(k, j 1)` of the right matrix. -/
abbrev rcolB (j : S5000x64.Idx) (k : Fin 128) : S128x64.Idx := fun a => match a with
  | ⟨0, _⟩ => ⟨k.val, k.isLt⟩
  | ⟨1, _⟩ => ⟨(j 1).val, (j 1).isLt⟩

/-- Over the extended reals the rounding of both operands to bf16 is the identity and the matrix unit's product into
    a zero accumulator is the plain sum: entry `j` of the block product is `∑ k, x (j 0, k) · w (k, j 1)`. -/
theorem k1_pay1_apply (x : Vec Ideal S5000x128 .f32) (w : Vec Ideal S128x64 .f32) (j : S5000x64.Idx) :
    k1_pay1 (F := Ideal) x w j = ∑ k : Fin 128, x (lrowB j k) * w (rcolB j k) := by
  unfold k1_pay1
  rw [shapeCast_self]
  refine (Ideal.matmul_constant_zero_apply dot_S5000x128_S128x64_S5000x64_1_0_0_1_n_n none _ _ j).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = lrowB j k := funext fun a => Fin.ext (by
    match a with
    | ⟨0, _⟩ => exact lhsB_0 _ _
    | ⟨1, _⟩ => exact (lhsB_1 _ _).trans hk)
  have er : dot_S5000x128_S128x64_S5000x64_1_0_0_1_n_n.rhsIdx j ((ValueIdx.contrEquiv1 dot_S5000x128_S128x64_S5000x64_1_0_0_1_n_n 128 rfl rfl).symm k) = rcolB j k := funext fun a => Fin.ext (by
    match a with
    | ⟨0, _⟩ => exact (rhsB_0 _ _).trans hk
    | ⟨1, _⟩ => exact rhsB_1 _ _)
  rw [el, er]
  rfl

end Cert.KernelIdeal.Blocks

end
-- ==== Proof.Products.lean ====
/-
  The two matrix products of the network as functions of whole arrays, and the step from a block to the array: the
  product of rows `5000 t … 5000 t + 4999` of `X` with `W` is those rows of `X · W`.
-/
import proofs.«129773_j22823456211322_1_alg».proof.Proof.BlockProduct

noncomputable section

namespace Cert.KernelIdeal.Blocks

open Cert.KernelIdeal Cert.KernelIdeal.Gen Idealize.ShloMosaic Idealize.ShloMosaic.TcCoe

/-! ## The first product: S50000x256 by S256x128 -/

/-- Entry `(i 0, k)` of the left matrix. -/
abbrev arowA (i : S50000x128.Idx) (k : Fin 256) : S50000x256.Idx := fun a => match a with
  | ⟨0, _⟩ => ⟨(i 0).val, (i 0).isLt⟩
  | ⟨1, _⟩ => ⟨k.val, k.isLt⟩
/-- Entry `(k, i 1)` of the right matrix. -/
abbrev acolA (i : S50000x128.Idx) (k : Fin 256) : S256x128.Idx := fun a => match a with
  | ⟨0, _⟩ => ⟨k.val, k.isLt⟩
  | ⟨1, _⟩ => ⟨(i 1).val, (i 1).isLt⟩

/-- The product matrix over the extended reals, entry by entry: `(X · W) (r, c) = ∑ k, X (r, k) · W (k, c)`. -/
def prodA (X : Vec Ideal S50000x256 .f32) (W : Vec Ideal S256x128 .f32) : Vec Ideal S50000x128 .f32 :=
  fun i => ∑ k : Fin 256, X (arowA i k) * W (acolA i k)

/-- A block's product is the matching rows of the whole product: if row `j 0` of the block is row `i 0` of `X`,
    the right operand is `W`, and the columns agree, entry `j` of the block product is entry `i` of `X · W`. -/
theorem blockA (X : Vec Ideal S50000x256 .f32) (W : Vec Ideal S256x128 .f32)
    (x0 : Vec Ideal S5000x256 .f32) (x1 : Vec Ideal S256x128 .f32) (j : S5000x128.Idx) (i : S50000x128.Idx)
    (h0 : ∀ k : Fin 256, x0 (lrowA j k) = X (arowA i k)) (h1 : ∀ k : Fin 256, x1 (rcolA j k) = W (acolA i k)) :
    k0_pay1 (F := Ideal) x0 x1 j = prodA X W i := by
  rw [k0_pay1_apply]
  unfold prodA
  exact Finset.sum_congr rfl fun k _ => by rw [h0 k, h1 k]

/-! ## The second product: S50000x128 by S128x64 -/

/-- Entry `(i 0, k)` of the left matrix. -/
abbrev arowB (i : S50000x64.Idx) (k : Fin 128) : S50000x128.Idx := fun a => match a with
  | ⟨0, _⟩ => ⟨(i 0).val, (i 0).isLt⟩
  | ⟨1, _⟩ => ⟨k.val, k.isLt⟩
/-- Entry `(k, i 1)` of the right matrix. -/
abbrev acolB (i : S50000x64.Idx) (k : Fin 128) : S128x64.Idx := fun a => match a with
  | ⟨0, _⟩ => ⟨k.val, k.isLt⟩
  | ⟨1, _⟩ => ⟨(i 1).val, (i 1).isLt⟩

/-- The product matrix over the extended reals, entry by entry: `(X · W) (r, c) = ∑ k, X (r, k) · W (k, c)`. -/
def prodB (X : Vec Ideal S50000x128 .f32) (W : Vec Ideal S128x64 .f32) : Vec Ideal S50000x64 .f32 :=
  fun i => ∑ k : Fin 128, X (arowB i k) * W (acolB i k)

/-- A block's product is the matching rows of the whole product: if row `j 0` of the block is row `i 0` of `X`,
    the right operand is `W`, and the columns agree, entry `j` of the block product is entry `i` of `X · W`. -/
theorem blockB (X : Vec Ideal S50000x128 .f32) (W : Vec Ideal S128x64 .f32)
    (x0 : Vec Ideal S5000x128 .f32) (x1 : Vec Ideal S128x64 .f32) (j : S5000x64.Idx) (i : S50000x64.Idx)
    (h0 : ∀ k : Fin 128, x0 (lrowB j k) = X (arowB i k)) (h1 : ∀ k : Fin 128, x1 (rcolB j k) = W (acolB i k)) :
    k1_pay1 (F := Ideal) x0 x1 j = prodB X W i := by
  rw [k1_pay1_apply]
  unfold prodB
  exact Finset.sum_congr rfl fun k _ => by rw [h0 k, h1 k]

end Cert.KernelIdeal.Blocks

end
-- ==== Proof.Region0.lean ====
/-
  The first region's result array, as one function of the arrays the region is entered with.
  The region runs its body at ten grid points; point `t` fetches rows `5000 t … 5000 t + 4999` of the left operand and
  the whole right operand, and writes back the block's product as rows `5000 t … 5000 t + 4999` of the result.  Each
  written block is the restriction of ONE function of the array index — the product of the two arrays the region finds
  at its operands — and the ten blocks cover the result array, so the array ends holding that product.
-/
import proofs.«129773_j22823456211322_1_alg».proof.Proof.Gen.KernelIdeal.Frame
import proofs.«129773_j22823456211322_1_alg».proof.Proof.Products

set_option maxRecDepth 16384

noncomputable section

namespace Cert.KernelIdeal.Regions

open Cert.KernelIdeal Cert.KernelIdeal.Gen Cert.KernelIdeal.Blocks
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The first product: S50000x256 by S256x128 -/

/-- The index maps over the grid: the left operand's and the result's row block is the grid point, every other
    block index is zero. -/
theorem idx_factsA : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What grid point `t` writes back is block `t` — rows `5000 t` to `5000 t + 4999` — of the product of the two
    arrays the region finds at its operands. -/
theorem flushedA (c : Dev nD) (t : Fin cfg0.N) :
    (dat0 V c).flushed 2 t = ((cfg0.win 2).blk t).view.read (Elt Ideal) (prodA (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_factsA t
  funext j
  refine blockA (V c main_arg0) (V c main_arg2) (iblk0 V c 0 t) (iblk0 V c 1 t) j (((cfg0.win 2).blk t).view.emb j) (fun k => ?_) (fun k => ?_)
  · show V c main_arg0 (((cfg0.win 0).blk t).view.emb (lrowA j k)) = V c main_arg0 (arowA (((cfg0.win 2).blk t).view.emb j) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  · show V c main_arg2 (((cfg0.win 1).blk t).view.emb (rcolA j k)) = V c main_arg2 (acolA (((cfg0.win 2).blk t).view.emb j) k)
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega

/-- An index of the result array is in point `t`'s block iff each coordinate is in the block's range on its axis. -/
theorem mem_blkA (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` of the result lies in the block of grid point `r / 5000`: the ten blocks cover the array. -/
theorem coverA (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, e4, e5⟩ := idx_factsA ⟨(i 0).val / 5000, hlt⟩
  have e4' : win0_2.index ⟨(i 0).val / 5000, hlt⟩ (0 : Fin 2) = (i 0).val / 5000 := e4
  refine ⟨⟨(i 0).val / 5000, hlt⟩, flush0_2 _, ?_⟩
  rw [mem_blkA]
  intro a
  match a with
  | ⟨0, _⟩ => show win0_2.index ⟨(i 0).val / 5000, hlt⟩ (0 : Fin 2) * 5000 ≤ (i 0).val ∧ (i 0).val < win0_2.index ⟨(i 0).val / 5000, hlt⟩ (0 : Fin 2) * 5000 + 5000; omega
  | ⟨1, _⟩ => show win0_2.index ⟨(i 0).val / 5000, hlt⟩ (1 : Fin 2) * 128 ≤ (i 1).val ∧ (i 1).val < win0_2.index ⟨(i 0).val / 5000, hlt⟩ (1 : Fin 2) * 128 + 128; omega

/-- The result array after the region: the product of the two operand arrays as the region finds them. -/
theorem arrA (c : Dev nD) : (dat0 V c).arrAt 2 cfg0.N = prodA (V c main_arg0) (V c main_arg2) :=
  (dat0 V c).arrAt_eq_of_cover 2 (prodA (V c main_arg0) (V c main_arg2)) (fun t _ => flushedA V c t) (coverA)

end Cert.KernelIdeal.Regions

end
-- ==== Proof.Region1.lean ====
/-
  The second region's result array, as one function of the arrays the region is entered with.
  The region runs its body at ten grid points; point `t` fetches rows `5000 t … 5000 t + 4999` of the left operand and
  the whole right operand, and writes back the block's product as rows `5000 t … 5000 t + 4999` of the result.  Each
  written block is the restriction of ONE function of the array index — the product of the two arrays the region finds
  at its operands — and the ten blocks cover the result array, so the array ends holding that product.
-/
import proofs.«129773_j22823456211322_1_alg».proof.Proof.Gen.KernelIdeal.Frame
import proofs.«129773_j22823456211322_1_alg».proof.Proof.Products

set_option maxRecDepth 16384

noncomputable section

namespace Cert.KernelIdeal.Regions

open Cert.KernelIdeal Cert.KernelIdeal.Gen Cert.KernelIdeal.Blocks
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz' : (![0, 0] : Fin 2 → Nat) = fun _ => 0 := funext fun a => by fin_cases a <;> rfl

/-! ## The second product: S50000x128 by S128x64 -/

/-- The index maps over the grid: the left operand's and the result's row block is the grid point, every other
    block index is zero. -/
theorem idx_factsB : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What grid point `t` writes back is block `t` — rows `5000 t` to `5000 t + 4999` — of the product of the two
    arrays the region finds at its operands. -/
theorem flushedB (c : Dev nD) (t : Fin cfg1.N) :
    (dat1 V c).flushed 2 t = ((cfg1.win 2).blk t).view.read (Elt Ideal) (prodB (V c main_v47) (V c main_arg4)) := by
  show (cfg1.win 2).cut (grid1.coords t) ((dat1 V c).after 2 t) = _
  rw [after1_2]
  unfold out1_2
  rw [View.canon_unit_zero hz']
  simp only [View.ld_unit_zero (S := S5000x128) hz', View.ld_unit_zero (S := S128x64) hz']
  obtain ⟨e0, e1, e2, e3, e4, e5⟩ := idx_factsB t
  funext j
  refine blockB (V c main_v47) (V c main_arg4) (iblk1 V c 0 t) (iblk1 V c 1 t) j (((cfg1.win 2).blk t).view.emb j) (fun k => ?_) (fun k => ?_)
  · show V c main_v47 (((cfg1.win 0).blk t).view.emb (lrowB j k)) = V c main_v47 (arowB (((cfg1.win 2).blk t).view.emb j) k)
    refine congrArg (V c main_v47) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · show V c main_arg4 (((cfg1.win 1).blk t).view.emb (rcolB j k)) = V c main_arg4 (acolB (((cfg1.win 2).blk t).view.emb j) k)
    refine congrArg (V c main_arg4) (funext fun a => Fin.ext ?_)
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega

/-- An index of the result array is in point `t`'s block iff each coordinate is in the block's range on its axis. -/
theorem mem_blkB (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- Row `r` of the result lies in the block of grid point `r / 5000`: the ten blocks cover the array. -/
theorem coverB (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  have hlt : (i 0).val / 5000 < cfg1.N := by rw [hN]; omega
  obtain ⟨-, -, -, -, e4, e5⟩ := idx_factsB ⟨(i 0).val / 5000, hlt⟩
  have e4' : win1_2.index ⟨(i 0).val / 5000, hlt⟩ (0 : Fin 2) = (i 0).val / 5000 := e4
  refine ⟨⟨(i 0).val / 5000, hlt⟩, flush1_2 _, ?_⟩
  rw [mem_blkB]
  intro a
  match a with
  | ⟨0, _⟩ => show win1_2.index ⟨(i 0).val / 5000, hlt⟩ (0 : Fin 2) * 5000 ≤ (i 0).val ∧ (i 0).val < win1_2.index ⟨(i 0).val / 5000, hlt⟩ (0 : Fin 2) * 5000 + 5000; omega
  | ⟨1, _⟩ => show win1_2.index ⟨(i 0).val / 5000, hlt⟩ (1 : Fin 2) * 64 ≤ (i 1).val ∧ (i 1).val < win1_2.index ⟨(i 0).val / 5000, hlt⟩ (1 : Fin 2) * 64 + 64; omega

/-- The result array after the region: the product of the two operand arrays as the region finds them. -/
theorem arrB (c : Dev nD) : (dat1 V c).arrAt 2 cfg1.N = prodB (V c main_v47) (V c main_arg4) :=
  (dat1 V c).arrAt_eq_of_cover 2 (prodB (V c main_v47) (V c main_arg4)) (fun t _ => flushedB V c t) (coverB)

end Cert.KernelIdeal.Regions

end
-- ==== Proof.KernelFold.lean ====
/-
  The kernel program's buffers at the boundaries of its eight segments, read back to the launch memory.  The three
  stretches before the first region compute, from the edge list alone, the source and target lists and the edge
  weights; the first region leaves the first product in its result array and touches nothing else; the next two
  stretches aggregate it (gather at the sources, scale, scatter-add at the targets, bias) and take the positive part;
  the second region leaves the second product; the last stretch aggregates that.  Each boundary value is stated
  with the layer functions, so the fold never has to be opened again.
-/
import proofs.«129773_j22823456211322_1_alg».proof.Proof.Gen.KernelIdeal.Frame
import proofs.«129773_j22823456211322_1_alg».proof.Proof.Layers
import proofs.«129773_j22823456211322_1_alg».proof.Proof.Region0
import proofs.«129773_j22823456211322_1_alg».proof.Proof.Region1

set_option maxRecDepth 16384
set_option maxHeartbeats 4000000

noncomputable section

namespace Cert.KernelIdeal.Fold

open Cert.KernelIdeal Cert.KernelIdeal.Gen
open Idealize.ShloMosaic Idealize.ShloMosaic.TcCoe Idealize.SL.Sem Idealize.ShloMosaic.StableHlo
open Cert.KernelIdeal.Blocks (prodA prodB)

/-! # The host stretches, for any float instance -/

section AnyInstance

variable {F : FTy → Type} [FloatOps F]
variable (m : (ℓ : Loc nD τ sig) → Buf (Elt F) ℓ) (ρ : Dev nD → PrngReg) (c : Dev nD)

/-! ## The first stretch: the source and target lists, the degree's sign and inverse square root -/

theorem W1_srcs : W1 m ρ c (Proc.devRef .tc main_v3) = Layers.srcs (m ((c.tc : Thread nD τ).loc main_arg1)) := by
  show StableHlo.after hostOps0 (W0 m ρ c) (Proc.devRef .tc main_v3) = _
  generalize hV : W0 m ρ c = V
  dsimp only [hostOps0]
  after_results
  first | done | (subst hV; rfl)
theorem W1_dsts : W1 m ρ c (Proc.devRef .tc main_v6) = Layers.dsts (m ((c.tc : Thread nD τ).loc main_arg1)) := by
  show StableHlo.after hostOps0 (W0 m ρ c) (Proc.devRef .tc main_v6) = _
  generalize hV : W0 m ρ c = V
  dsimp only [hostOps0]
  after_results
  first | done | (subst hV; rfl)
theorem W1_pos : W1 m ρ c (Proc.devRef .tc main_v12) = cmpf (F := F) .ogt (Layers.deg (m ((c.tc : Thread nD τ).loc main_arg1))) (broadcastInDim S50000 ![] Gen.bcast_S_S50000 (constant (F := F) S_ .f32 0x00000000#32)) := by
  show StableHlo.after hostOps0 (W0 m ρ c) (Proc.devRef .tc main_v12) = _
  generalize hV : W0 m ρ c = V
  dsimp only [hostOps0]
  after_results
  first | done | (subst hV; rfl)
theorem W1_rsqrt : W1 m ρ c (Proc.devRef .tc main_v13) = Host.rsqrt (F := F) (φ := .f32) (Layers.deg (m ((c.tc : Thread nD τ).loc main_arg1))) := by
  show StableHlo.after hostOps0 (W0 m ρ c) (Proc.devRef .tc main_v13) = _
  generalize hV : W0 m ρ c = V
  dsimp only [hostOps0]
  after_results
  first | done | (subst hV; rfl)
theorem W1_zero : W1 m ρ c (Proc.devRef .tc main_cst_2) = constant (F := F) S_ .f32 0x00000000#32 := by
  show StableHlo.after hostOps0 (W0 m ρ c) (Proc.devRef .tc main_cst_2) = _
  generalize hV : W0 m ρ c = V
  dsimp only [hostOps0]
  after_results
  first | done | (subst hV; rfl)
theorem W1_main_arg0 : W1 m ρ c (Proc.devRef .tc main_arg0) = (m ((c.tc : Thread nD τ).loc main_arg0)) := by
  show StableHlo.after hostOps0 (W0 m ρ c) (Proc.devRef .tc main_arg0) = _
  generalize hV : W0 m ρ c = V
  dsimp only [hostOps0]
  after_results
  first | done | (subst hV; rfl)
theorem W1_main_arg2 : W1 m ρ c (Proc.devRef .tc main_arg2) = (m ((c.tc : Thread nD τ).loc main_arg2)) := by
  show StableHlo.after hostOps0 (W0 m ρ c) (Proc.devRef .tc main_arg2) = _
  generalize hV : W0 m ρ c = V
  dsimp only [hostOps0]
  after_results
  first | done | (subst hV; rfl)
theorem W1_main_arg3 : W1 m ρ c (Proc.devRef .tc main_arg3) = (m ((c.tc : Thread nD τ).loc main_arg3)) := by
  show StableHlo.after hostOps0 (W0 m ρ c) (Proc.devRef .tc main_arg3) = _
  generalize hV : W0 m ρ c = V
  dsimp only [hostOps0]
  after_results
  first | done | (subst hV; rfl)
theorem W1_main_arg4 : W1 m ρ c (Proc.devRef .tc main_arg4) = (m ((c.tc : Thread nD τ).loc main_arg4)) := by
  show StableHlo.after hostOps0 (W0 m ρ c) (Proc.devRef .tc main_arg4) = _
  generalize hV : W0 m ρ c = V
  dsimp only [hostOps0]
  after_results
  first | done | (subst hV; rfl)
theorem W1_main_arg5 : W1 m ρ c (Proc.devRef .tc main_arg5) = (m ((c.tc : Thread nD τ).loc main_arg5)) := by
  show StableHlo.after hostOps0 (W0 m ρ c) (Proc.devRef .tc main_arg5) = _
  generalize hV : W0 m ρ c = V
  dsimp only [hostOps0]
  after_results
  first | done | (subst hV; rfl)

/-! ## The second stretch: `deg^(-1/2)` where the degree is positive, zero elsewhere -/

theorem W2_dinv : W2 m ρ c (Proc.devRef .tc main_v14) = Layers.dinv (m ((c.tc : Thread nD τ).loc main_arg1)) := by
  show StableHlo.after hostOps0_1 (W1 m ρ c) (Proc.devRef .tc main_v14) = _
  generalize hV : W1 m ρ c = V
  dsimp only [hostOps0_1]
  after_results
  first | done | (subst hV; rw [W1_pos, W1_rsqrt, W1_zero]; rfl)
theorem W2_srcs : W2 m ρ c (Proc.devRef .tc main_v3) = Layers.srcs (m ((c.tc : Thread nD τ).loc main_arg1)) := by
  show StableHlo.after hostOps0_1 (W1 m ρ c) (Proc.devRef .tc main_v3) = _
  generalize hV : W1 m ρ c = V
  dsimp only [hostOps0_1]
  after_results
  first | done | (subst hV; exact W1_srcs m ρ c)
theorem W2_dsts : W2 m ρ c (Proc.devRef .tc main_v6) = Layers.dsts (m ((c.tc : Thread nD τ).loc main_arg1)) := by
  show StableHlo.after hostOps0_1 (W1 m ρ c) (Proc.devRef .tc main_v6) = _
  generalize hV : W1 m ρ c = V
  dsimp only [hostOps0_1]
  after_results
  first | done | (subst hV; exact W1_dsts m ρ c)
theorem W2_main_arg0 : W2 m ρ c (Proc.devRef .tc main_arg0) = (m ((c.tc : Thread nD τ).loc main_arg0)) := by
  show StableHlo.after hostOps0_1 (W1 m ρ c) (Proc.devRef .tc main_arg0) = _
  generalize hV : W1 m ρ c = V
  dsimp only [hostOps0_1]
  after_results
  first | done | (subst hV; exact W1_main_arg0 m ρ c)
theorem W2_main_arg2 : W2 m ρ c (Proc.devRef .tc main_arg2) = (m ((c.tc : Thread nD τ).loc main_arg2)) := by
  show StableHlo.after hostOps0_1 (W1 m ρ c) (Proc.devRef .tc main_arg2) = _
  generalize hV : W1 m ρ c = V
  dsimp only [hostOps0_1]
  after_results
  first | done | (subst hV; exact W1_main_arg2 m ρ c)
theorem W2_main_arg3 : W2 m ρ c (Proc.devRef .tc main_arg3) = (m ((c.tc : Thread nD τ).loc main_arg3)) := by
  show StableHlo.after hostOps0_1 (W1 m ρ c) (Proc.devRef .tc main_arg3) = _
  generalize hV : W1 m ρ c = V
  dsimp only [hostOps0_1]
  after_results
  first | done | (subst hV; exact W1_main_arg3 m ρ c)
theorem W2_main_arg4 : W2 m ρ c (Proc.devRef .tc main_arg4) = (m ((c.tc : Thread nD τ).loc main_arg4)) := by
  show StableHlo.after hostOps0_1 (W1 m ρ c) (Proc.devRef .tc main_arg4) = _
  generalize hV : W1 m ρ c = V
  dsimp only [hostOps0_1]
  after_results
  first | done | (subst hV; exact W1_main_arg4 m ρ c)
theorem W2_main_arg5 : W2 m ρ c (Proc.devRef .tc main_arg5) = (m ((c.tc : Thread nD τ).loc main_arg5)) := by
  show StableHlo.after hostOps0_1 (W1 m ρ c) (Proc.devRef .tc main_arg5) = _
  generalize hV : W1 m ρ c = V
  dsimp only [hostOps0_1]
  after_results
  first | done | (subst hV; exact W1_main_arg5 m ρ c)

/-! ## The third stretch: the edge weights -/

theorem W3_norm : W3 m ρ c (Proc.devRef .tc main_v29) = Layers.norm (m ((c.tc : Thread nD τ).loc main_arg1)) := by
  show StableHlo.after hostOps0_2 (W2 m ρ c) (Proc.devRef .tc main_v29) = _
  generalize hV : W2 m ρ c = V
  dsimp only [hostOps0_2]
  after_results
  first | done | (subst hV; rw [W2_dinv, W2_srcs, W2_dsts]; rfl)
theorem W3_srcs : W3 m ρ c (Proc.devRef .tc main_v3) = Layers.srcs (m ((c.tc : Thread nD τ).loc main_arg1)) := by
  show StableHlo.after hostOps0_2 (W2 m ρ c) (Proc.devRef .tc main_v3) = _
  generalize hV : W2 m ρ c = V
  dsimp only [hostOps0_2]
  after_results
  first | done | (subst hV; exact W2_srcs m ρ c)
theorem W3_dsts : W3 m ρ c (Proc.devRef .tc main_v6) = Layers.dsts (m ((c.tc : Thread nD τ).loc main_arg1)) := by
  show StableHlo.after hostOps0_2 (W2 m ρ c) (Proc.devRef .tc main_v6) = _
  generalize hV : W2 m ρ c = V
  dsimp only [hostOps0_2]
  after_results
  first | done | (subst hV; exact W2_dsts m ρ c)
theorem W3_main_arg0 : W3 m ρ c (Proc.devRef .tc main_arg0) = (m ((c.tc : Thread nD τ).loc main_arg0)) := by
  show StableHlo.after hostOps0_2 (W2 m ρ c) (Proc.devRef .tc main_arg0) = _
  generalize hV : W2 m ρ c = V
  dsimp only [hostOps0_2]
  after_results
  first | done | (subst hV; exact W2_main_arg0 m ρ c)
theorem W3_main_arg2 : W3 m ρ c (Proc.devRef .tc main_arg2) = (m ((c.tc : Thread nD τ).loc main_arg2)) := by
  show StableHlo.after hostOps0_2 (W2 m ρ c) (Proc.devRef .tc main_arg2) = _
  generalize hV : W2 m ρ c = V
  dsimp only [hostOps0_2]
  after_results
  first | done | (subst hV; exact W2_main_arg2 m ρ c)
theorem W3_main_arg3 : W3 m ρ c (Proc.devRef .tc main_arg3) = (m ((c.tc : Thread nD τ).loc main_arg3)) := by
  show StableHlo.after hostOps0_2 (W2 m ρ c) (Proc.devRef .tc main_arg3) = _
  generalize hV : W2 m ρ c = V
  dsimp only [hostOps0_2]
  after_results
  first | done | (subst hV; exact W2_main_arg3 m ρ c)
theorem W3_main_arg4 : W3 m ρ c (Proc.devRef .tc main_arg4) = (m ((c.tc : Thread nD τ).loc main_arg4)) := by
  show StableHlo.after hostOps0_2 (W2 m ρ c) (Proc.devRef .tc main_arg4) = _
  generalize hV : W2 m ρ c = V
  dsimp only [hostOps0_2]
  after_results
  first | done | (subst hV; exact W2_main_arg4 m ρ c)
theorem W3_main_arg5 : W3 m ρ c (Proc.devRef .tc main_arg5) = (m ((c.tc : Thread nD τ).loc main_arg5)) := by
  show StableHlo.after hostOps0_2 (W2 m ρ c) (Proc.devRef .tc main_arg5) = _
  generalize hV : W2 m ρ c = V
  dsimp only [hostOps0_2]
  after_results
  first | done | (subst hV; exact W2_main_arg5 m ρ c)

/-! ## Across the first region: it writes its result array and nothing else -/

theorem W4_srcs : W4 m ρ c (Proc.devRef .tc main_v3) = Layers.srcs (m ((c.tc : Thread nD τ).loc main_arg1)) :=
  (W4_of_ne m ρ c main_v3 (by decide)).trans (W3_srcs m ρ c)
theorem W4_dsts : W4 m ρ c (Proc.devRef .tc main_v6) = Layers.dsts (m ((c.tc : Thread nD τ).loc main_arg1)) :=
  (W4_of_ne m ρ c main_v6 (by decide)).trans (W3_dsts m ρ c)
theorem W4_norm : W4 m ρ c (Proc.devRef .tc main_v29) = Layers.norm (m ((c.tc : Thread nD τ).loc main_arg1)) :=
  (W4_of_ne m ρ c main_v29 (by decide)).trans (W3_norm m ρ c)
theorem W4_main_arg3 : W4 m ρ c (Proc.devRef .tc main_arg3) = (m ((c.tc : Thread nD τ).loc main_arg3)) :=
  (W4_of_ne m ρ c main_arg3 (by decide)).trans (W3_main_arg3 m ρ c)
theorem W4_main_arg4 : W4 m ρ c (Proc.devRef .tc main_arg4) = (m ((c.tc : Thread nD τ).loc main_arg4)) :=
  (W4_of_ne m ρ c main_arg4 (by decide)).trans (W3_main_arg4 m ρ c)
theorem W4_main_arg5 : W4 m ρ c (Proc.devRef .tc main_arg5) = (m ((c.tc : Thread nD τ).loc main_arg5)) :=
  (W4_of_ne m ρ c main_arg5 (by decide)).trans (W3_main_arg5 m ρ c)

/-! ## The fourth stretch: the first aggregation, of whatever the first region left in its result array -/

theorem W5_agg : W5 m ρ c (Proc.devRef .tc main_v46) = Layers.layer128 (m ((c.tc : Thread nD τ).loc main_arg1)) (W4 m ρ c (Proc.devRef .tc main_v30)) (m ((c.tc : Thread nD τ).loc main_arg3)) := by
  show StableHlo.after hostOps1 (W4 m ρ c) (Proc.devRef .tc main_v46) = _
  generalize hV : W4 m ρ c = V
  dsimp only [hostOps1]
  after_results
  first | done | (subst hV; rw [W4_srcs, W4_dsts, W4_norm, W4_main_arg3]; rfl)
theorem W5_srcs : W5 m ρ c (Proc.devRef .tc main_v3) = Layers.srcs (m ((c.tc : Thread nD τ).loc main_arg1)) := by
  show StableHlo.after hostOps1 (W4 m ρ c) (Proc.devRef .tc main_v3) = _
  generalize hV : W4 m ρ c = V
  dsimp only [hostOps1]
  after_results
  first | done | (subst hV; exact W4_srcs m ρ c)
theorem W5_dsts : W5 m ρ c (Proc.devRef .tc main_v6) = Layers.dsts (m ((c.tc : Thread nD τ).loc main_arg1)) := by
  show StableHlo.after hostOps1 (W4 m ρ c) (Proc.devRef .tc main_v6) = _
  generalize hV : W4 m ρ c = V
  dsimp only [hostOps1]
  after_results
  first | done | (subst hV; exact W4_dsts m ρ c)
theorem W5_norm : W5 m ρ c (Proc.devRef .tc main_v29) = Layers.norm (m ((c.tc : Thread nD τ).loc main_arg1)) := by
  show StableHlo.after hostOps1 (W4 m ρ c) (Proc.devRef .tc main_v29) = _
  generalize hV : W4 m ρ c = V
  dsimp only [hostOps1]
  after_results
  first | done | (subst hV; exact W4_norm m ρ c)
theorem W5_main_arg4 : W5 m ρ c (Proc.devRef .tc main_arg4) = (m ((c.tc : Thread nD τ).loc main_arg4)) := by
  show StableHlo.after hostOps1 (W4 m ρ c) (Proc.devRef .tc main_arg4) = _
  generalize hV : W4 m ρ c = V
  dsimp only [hostOps1]
  after_results
  first | done | (subst hV; exact W4_main_arg4 m ρ c)
theorem W5_main_arg5 : W5 m ρ c (Proc.devRef .tc main_arg5) = (m ((c.tc : Thread nD τ).loc main_arg5)) := by
  show StableHlo.after hostOps1 (W4 m ρ c) (Proc.devRef .tc main_arg5) = _
  generalize hV : W4 m ρ c = V
  dsimp only [hostOps1]
  after_results
  first | done | (subst hV; exact W4_main_arg5 m ρ c)

/-! ## The fifth stretch: the positive part -/

theorem W6_hidden : W6 m ρ c (Proc.devRef .tc main_v47) = Layers.relu128 (Layers.layer128 (m ((c.tc : Thread nD τ).loc main_arg1)) (W4 m ρ c (Proc.devRef .tc main_v30)) (m ((c.tc : Thread nD τ).loc main_arg3))) := by
  show StableHlo.after hostOps1_1 (W5 m ρ c) (Proc.devRef .tc main_v47) = _
  generalize hV : W5 m ρ c = V
  dsimp only [hostOps1_1]
  after_results
  first | done | (subst hV; rw [W5_agg]; rfl)
theorem W6_srcs : W6 m ρ c (Proc.devRef .tc main_v3) = Layers.srcs (m ((c.tc : Thread nD τ).loc main_arg1)) := by
  show StableHlo.after hostOps1_1 (W5 m ρ c) (Proc.devRef .tc main_v3) = _
  generalize hV : W5 m ρ c = V
  dsimp only [hostOps1_1]
  after_results
  first | done | (subst hV; exact W5_srcs m ρ c)
theorem W6_dsts : W6 m ρ c (Proc.devRef .tc main_v6) = Layers.dsts (m ((c.tc : Thread nD τ).loc main_arg1)) := by
  show StableHlo.after hostOps1_1 (W5 m ρ c) (Proc.devRef .tc main_v6) = _
  generalize hV : W5 m ρ c = V
  dsimp only [hostOps1_1]
  after_results
  first | done | (subst hV; exact W5_dsts m ρ c)
theorem W6_norm : W6 m ρ c (Proc.devRef .tc main_v29) = Layers.norm (m ((c.tc : Thread nD τ).loc main_arg1)) := by
  show StableHlo.after hostOps1_1 (W5 m ρ c) (Proc.devRef .tc main_v29) = _
  generalize hV : W5 m ρ c = V
  dsimp only [hostOps1_1]
  after_results
  first | done | (subst hV; exact W5_norm m ρ c)
theorem W6_main_arg4 : W6 m ρ c (Proc.devRef .tc main_arg4) = (m ((c.tc : Thread nD τ).loc main_arg4)) := by
  show StableHlo.after hostOps1_1 (W5 m ρ c) (Proc.devRef .tc main_arg4) = _
  generalize hV : W5 m ρ c = V
  dsimp only [hostOps1_1]
  after_results
  first | done | (subst hV; exact W5_main_arg4 m ρ c)
theorem W6_main_arg5 : W6 m ρ c (Proc.devRef .tc main_arg5) = (m ((c.tc : Thread nD τ).loc main_arg5)) := by
  show StableHlo.after hostOps1_1 (W5 m ρ c) (Proc.devRef .tc main_arg5) = _
  generalize hV : W5 m ρ c = V
  dsimp only [hostOps1_1]
  after_results
  first | done | (subst hV; exact W5_main_arg5 m ρ c)

/-! ## Across the second region -/

theorem W7_srcs : W7 m ρ c (Proc.devRef .tc main_v3) = Layers.srcs (m ((c.tc : Thread nD τ).loc main_arg1)) :=
  (W7_of_ne m ρ c main_v3 (by decide)).trans (W6_srcs m ρ c)
theorem W7_dsts : W7 m ρ c (Proc.devRef .tc main_v6) = Layers.dsts (m ((c.tc : Thread nD τ).loc main_arg1)) :=
  (W7_of_ne m ρ c main_v6 (by decide)).trans (W6_dsts m ρ c)
theorem W7_norm : W7 m ρ c (Proc.devRef .tc main_v29) = Layers.norm (m ((c.tc : Thread nD τ).loc main_arg1)) :=
  (W7_of_ne m ρ c main_v29 (by decide)).trans (W6_norm m ρ c)
theorem W7_main_arg5 : W7 m ρ c (Proc.devRef .tc main_arg5) = (m ((c.tc : Thread nD τ).loc main_arg5)) :=
  (W7_of_ne m ρ c main_arg5 (by decide)).trans (W6_main_arg5 m ρ c)

/-! ## The last stretch: the second aggregation, of whatever the second region left in its result array -/

theorem W8_agg : W8 m ρ c (Proc.devRef .tc main_v64) = Layers.layer64 (m ((c.tc : Thread nD τ).loc main_arg1)) (W7 m ρ c (Proc.devRef .tc main_v48)) (m ((c.tc : Thread nD τ).loc main_arg5)) := by
  show StableHlo.after hostOps2 (W7 m ρ c) (Proc.devRef .tc main_v64) = _
  generalize hV : W7 m ρ c = V
  dsimp only [hostOps2]
  after_results
  first | done | (subst hV; rw [W7_srcs, W7_dsts, W7_norm, W7_main_arg5]; rfl)

end AnyInstance

/-! # The two regions' result arrays over the extended reals, and the result -/

section AtIdeal

variable (m : (ℓ : Loc nD τ sig) → Buf (Elt Ideal) ℓ) (ρ : Dev nD → PrngReg) (c : Dev nD)

/-- The first region's result array is the first product of the arguments. -/
theorem W4_prod : W4 m ρ c (Proc.devRef .tc main_v30) = prodA (m ((c.tc : Thread nD τ).loc main_arg0)) (m ((c.tc : Thread nD τ).loc main_arg2)) := by
  refine (W4_arr m ρ c 2).trans ((Regions.arrA (V3 m ρ) c).trans ?_)
  show prodA (W3 m ρ c (Proc.devRef .tc main_arg0)) (W3 m ρ c (Proc.devRef .tc main_arg2)) = _
  rw [W3_main_arg0, W3_main_arg2]

/-- The second region's result array is the product of the hidden features with the second weight matrix. -/
theorem W7_prod : W7 m ρ c (Proc.devRef .tc main_v48) = prodB (Layers.relu128 (Layers.layer128 (m ((c.tc : Thread nD τ).loc main_arg1)) (prodA (m ((c.tc : Thread nD τ).loc main_arg0)) (m ((c.tc : Thread nD τ).loc main_arg2))) (m ((c.tc : Thread nD τ).loc main_arg3)))) (m ((c.tc : Thread nD τ).loc main_arg4)) := by
  refine (W7_arr m ρ c 2).trans ((Regions.arrB (V6 m ρ) c).trans ?_)
  show prodB (W6 m ρ c (Proc.devRef .tc main_v47)) (W6 m ρ c (Proc.devRef .tc main_arg4)) = _
  rw [W6_hidden, W6_main_arg4, W4_prod]

/-- The result buffer at the end of the fold: the second aggregation of the second product of the positive part of
    the first aggregation of the first product. -/
theorem W8_result : W8 m ρ c (Proc.devRef .tc main_v64) = Layers.layer64 (m ((c.tc : Thread nD τ).loc main_arg1)) (prodB (Layers.relu128 (Layers.layer128 (m ((c.tc : Thread nD τ).loc main_arg1)) (prodA (m ((c.tc : Thread nD τ).loc main_arg0)) (m ((c.tc : Thread nD τ).loc main_arg2))) (m ((c.tc : Thread nD τ).loc main_arg3)))) (m ((c.tc : Thread nD τ).loc main_arg4))) (m ((c.tc : Thread nD τ).loc main_arg5)) := by
  rw [W8_agg, W7_prod]

end AtIdeal

end Cert.KernelIdeal.Fold

end
-- ==== Proof.RefProducts.lean ====
/-
  The reference's two `dot_general`s are the product matrices.  At exact values the host's product with one
  contracted axis reads, at `(r, c)`, as the sum over the contraction index of left times right; re-indexed by the
  index's one coordinate this is the product matrix the kernel's regions compute block by block.
-/
import proofs.«129773_j22823456211322_1_alg».proof.Proof.Gen.ReferenceIdeal
import proofs.«129773_j22823456211322_1_alg».proof.Proof.Products
import Idealize.ShloMosaic.Lib.ValueIdx
import Idealize.ShloMosaic.PureOps.Ideal.Laws

noncomputable section

namespace Cert.ReferenceIdeal.Products

open Cert.ReferenceIdeal Idealize.ShloMosaic Idealize.ShloMosaic.TcCoe
open Cert.KernelIdeal.Blocks (prodA prodB arowA acolA arowB acolB)

/-! ### `S50000x256` by `S256x128` on the host -/

theorem lhsA_0 (i : S50000x128.Idx) (q : dot_S50000x256_S256x128_S50000x128_1_0_0_1_n_n.contr.Idx) :
    (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide), dif_pos (show (0 : Fin S50000x256.rank) ∈ dot_S50000x256_S256x128_S50000x128_1_0_0_1_n_n.lhsNonContracting by decide)]
  rfl
theorem lhsA_1 (i : S50000x128.Idx) (q : dot_S50000x256_S256x128_S50000x128_1_0_0_1_n_n.contr.Idx) :
    (dot_S50000x256_S256x128_S50000x128_1_0_0_1_n_n.lhsIdx i q 1).val = (q ⟨0, by decide⟩).val :=
  dot_S50000x256_S256x128_S50000x128_1_0_0_1_n_n.lhsIdx_val_of_single rfl i q
theorem rhsA_0 (i : S50000x128.Idx) (q : dot_S50000x256_S256x128_S50000x128_1_0_0_1_n_n.contr.Idx) :
    (dot_S50000x256_S256x128_S50000x128_1_0_0_1_n_n.rhsIdx i q 0).val = (q ⟨0, by decide⟩).val :=
  dot_S50000x256_S256x128_S50000x128_1_0_0_1_n_n.rhsIdx_val_of_single rfl i q
theorem rhsA_1 (i : S50000x128.Idx) (q : dot_S50000x256_S256x128_S50000x128_1_0_0_1_n_n.contr.Idx) :
    (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide), dif_pos (show (1 : Fin S256x128.rank) ∈ dot_S50000x256_S256x128_S50000x128_1_0_0_1_n_n.rhsNonContracting by decide)]
  rfl

/-- Over the extended reals the host's `dot_general` with one contracted axis is the product matrix:
    entry `(r, c)` is `∑ k, X (r, k) · W (k, c)`. -/
theorem dotA_eq (X : (⟨S50000x256, .f32⟩ : BufTy).Contents (Elt Ideal)) (W : (⟨S256x128, .f32⟩ : BufTy).Contents (Elt Ideal)) :
    Host.dotGeneral (F := Ideal) (φ₁ := .f32) (φ₂ := .f32) dot_S50000x256_S256x128_S50000x128_1_0_0_1_n_n none X W = prodA X W := by
  funext i
  refine Eq.trans ?_ (show (∑ k : Fin 256, X (arowA i k) * W (acolA i k)) = prodA X W i from rfl)
  simp only [Host.dotGeneral]
  rw [Ideal.dotGeneral_apply, ← Equiv.sum_comp (ValueIdx.contrEquiv1 dot_S50000x256_S256x128_S50000x128_1_0_0_1_n_n 256 rfl rfl).symm]
  refine Finset.sum_congr rfl fun k _ => ?_
  have hk := ValueIdx.contrEquiv1_symm_val dot_S50000x256_S256x128_S50000x128_1_0_0_1_n_n 256 rfl rfl k
  have el : dot_S50000x256_S256x128_S50000x128_1_0_0_1_n_n.lhsIdx i ((ValueIdx.contrEquiv1 dot_S50000x256_S256x128_S50000x128_1_0_0_1_n_n 256 rfl rfl).symm k) = arowA i k := funext fun a => Fin.ext (by
    match a with
    | ⟨0, _⟩ => exact lhsA_0 _ _
    | ⟨1, _⟩ => exact (lhsA_1 _ _).trans hk)
  have er : dot_S50000x256_S256x128_S50000x128_1_0_0_1_n_n.rhsIdx i ((ValueIdx.contrEquiv1 dot_S50000x256_S256x128_S50000x128_1_0_0_1_n_n 256 rfl rfl).symm k) = acolA i k := funext fun a => Fin.ext (by
    match a with
    | ⟨0, _⟩ => exact (rhsA_0 _ _).trans hk
    | ⟨1, _⟩ => exact rhsA_1 _ _)
  rw [el, er]

/-! ### `S50000x128` by `S128x64` on the host -/

theorem lhsB_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem lhsB_1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
theorem rhsB_0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
theorem rhsB_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- Over the extended reals the host's `dot_general` with one contracted axis is the product matrix:
    entry `(r, c)` is `∑ k, X (r, k) · W (k, c)`. -/
theorem dotB_eq (X : (⟨S50000x128, .f32⟩ : BufTy).Contents (Elt Ideal)) (W : (⟨S128x64, .f32⟩ : BufTy).Contents (Elt Ideal)) :
    Host.dotGeneral (F := Ideal) (φ₁ := .f32) (φ₂ := .f32) dot_S50000x128_S128x64_S50000x64_1_0_0_1_n_n none X W = prodB X W := by
  funext i
  refine Eq.trans ?_ (show (∑ k : Fin 128, X (arowB i k) * W (acolB i k)) = prodB X W i from rfl)
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = arowB i k := funext fun a => Fin.ext (by
    match a with
    | ⟨0, _⟩ => exact lhsB_0 _ _
    | ⟨1, _⟩ => exact (lhsB_1 _ _).trans hk)
  have er : dot_S50000x128_S128x64_S50000x64_1_0_0_1_n_n.rhsIdx i ((ValueIdx.contrEquiv1 dot_S50000x128_S128x64_S50000x64_1_0_0_1_n_n 128 rfl rfl).symm k) = acolB i k := funext fun a => Fin.ext (by
    match a with
    | ⟨0, _⟩ => exact (rhsB_0 _ _).trans hk
    | ⟨1, _⟩ => exact rhsB_1 _ _)
  rw [el, er]

end Cert.ReferenceIdeal.Products

end
-- ==== Proof.RefShape.lean ====
/-
  The reference's result as the network's two layers.  Its composed term applies, to the edge list and the two
  products, exactly the operations named in the layer functions: the second aggregation of the second product of the
  positive part of the first aggregation of the first product.  With both products read as product matrices this is
  the form the kernel's result is brought to.
-/
import proofs.«129773_j22823456211322_1_alg».proof.Proof.RefRunP
import proofs.«129773_j22823456211322_1_alg».proof.Proof.Layers
import proofs.«129773_j22823456211322_1_alg».proof.Proof.RefProducts

set_option maxRecDepth 16384

noncomputable section

namespace Cert.ReferenceIdeal.Shape

open Cert.ReferenceIdeal Idealize.ShloMosaic Idealize.ShloMosaic.TcCoe Idealize.SL.Sem
open Cert.KernelIdeal.Layers (layer64 layer128 relu128)
open Cert.KernelIdeal.Blocks (prodA prodB)

/-- The reference's result term is the two layers around its two `dot_general`s. -/
theorem res_layers (m : (ℓ : Loc nD τ sig) → Buf (Elt Ideal) ℓ) (c : Dev nD) :
    ValueP.res_main_v79 m c
      = layer64 (m ((c.tc : Thread nD τ).loc main_arg1))
          (Host.dotGeneral (F := Ideal) (φ₁ := .f32) (φ₂ := .f32) dot_S50000x128_S128x64_S50000x64_1_0_0_1_n_n none
            (relu128 (layer128 (m ((c.tc : Thread nD τ).loc main_arg1))
              (Host.dotGeneral (F := Ideal) (φ₁ := .f32) (φ₂ := .f32) dot_S50000x256_S256x128_S50000x128_1_0_0_1_n_n none (m ((c.tc : Thread nD τ).loc main_arg0)) (m ((c.tc : Thread nD τ).loc main_arg2)))
              (m ((c.tc : Thread nD τ).loc main_arg3))))
            (m ((c.tc : Thread nD τ).loc main_arg4)))
          (m ((c.tc : Thread nD τ).loc main_arg5)) := by
  unfold ValueP.res_main_v79
  rfl

/-- The same with both products as product matrices. -/
theorem res_products (m : (ℓ : Loc nD τ sig) → Buf (Elt Ideal) ℓ) (c : Dev nD) :
    ValueP.res_main_v79 m c
      = layer64 (m ((c.tc : Thread nD τ).loc main_arg1))
          (prodB (relu128 (layer128 (m ((c.tc : Thread nD τ).loc main_arg1)) (prodA (m ((c.tc : Thread nD τ).loc main_arg0)) (m ((c.tc : Thread nD τ).loc main_arg2))) (m ((c.tc : Thread nD τ).loc main_arg3)))) (m ((c.tc : Thread nD τ).loc main_arg4)))
          (m ((c.tc : Thread nD τ).loc main_arg5)) := by
  rw [res_layers, Products.dotA_eq, Products.dotB_eq]

end Cert.ReferenceIdeal.Shape

end
-- ==== Proof.lean ====
/-
  The two programs compute a two-layer graph convolution: with self loops appended to the edge list, every node's
  row is the sum, over the edges into it, of the source's transformed row scaled by `deg(src)^(-1/2) · deg(dst)^(-1/2)`,
  plus a bias; the first layer is followed by the positive part.  The kernel program computes the two dense
  transforms `x · W1` and `h · W2` by a tiled matrix product on the matrix unit (ten blocks of 5000 rows, operands
  rounded to bf16, accumulated in f32) and leaves the gather and the scatter-add to the host; the reference computes
  the transforms with the host's `dot_general`.  Over the extended reals the rounding is the identity and both
  products are the plain sums `∑ k, x (r, k) · w (k, c)`, and every other operation is literally the same in the two
  programs, so the results agree entry by entry; no finiteness of the inputs is used.

  The frames of the two kernel programs are the generated ones; the reference's frame is its run with the result
  dropped.  The ideal pass rewrote nothing, so there is nothing to preserve.  For the equality of the results the
  kernel program's run is stated with its result buffer named (`RunValue.run_value`), that buffer is read back
  through the eight segments to the launch memory (`Fold.W8_result`: each region's result array is a product matrix
  because its ten blocks are restrictions of one function and cover the array), and the reference's composed term is
  brought to the same form (`Shape.res_products`).
-/
import proofs.«129773_j22823456211322_1_alg».proof.Defs
import proofs.«129773_j22823456211322_1_alg».proof.Proof.Gen.Kernel
import proofs.«129773_j22823456211322_1_alg».proof.Proof.Gen.Kernel.Skeleton
import proofs.«129773_j22823456211322_1_alg».proof.Proof.Gen.Kernel.Launch
import proofs.«129773_j22823456211322_1_alg».proof.Proof.Gen.Kernel.Points
import proofs.«129773_j22823456211322_1_alg».proof.Proof.Gen.Kernel.Frame
import proofs.«129773_j22823456211322_1_alg».proof.Proof.Gen.KernelIdeal
import proofs.«129773_j22823456211322_1_alg».proof.Proof.Gen.KernelIdeal.Skeleton
import proofs.«129773_j22823456211322_1_alg».proof.Proof.Gen.KernelIdeal.Launch
import proofs.«129773_j22823456211322_1_alg».proof.Proof.Gen.KernelIdeal.Points
import proofs.«129773_j22823456211322_1_alg».proof.Proof.Gen.KernelIdeal.Frame
import proofs.«129773_j22823456211322_1_alg».proof.Proof.Gen.ReferenceIdeal
import proofs.«129773_j22823456211322_1_alg».proof.Proof.Gen.Pre_finite_inputs
import proofs.«129773_j22823456211322_1_alg».proof.Proof.RefRunP
import proofs.«129773_j22823456211322_1_alg».proof.Proof.KernelRun
import proofs.«129773_j22823456211322_1_alg».proof.Proof.KernelFold
import proofs.«129773_j22823456211322_1_alg».proof.Proof.RefShape
import Idealize.ShloMosaic.Adequacy
import Idealize.ShloMosaic.Init

noncomputable section

namespace Cert.Proof

open Idealize.ShloMosaic Idealize.ShloMosaic.TcCoe Idealize.SL.Sem
open Cert.KernelIdeal.Layers (layer64 layer128 relu128)
open Cert.KernelIdeal.Blocks (prodA prodB)

theorem frame_kernel : Cert.frame_Kernel := fun m ρ _ => Cert.Kernel.Gen.frame m ρ

theorem frame_kernel_ideal : Cert.frame_KernelIdeal := fun m ρ _ => Cert.KernelIdeal.Gen.frame m ρ

/-- The reference's run with its result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the second aggregation of the second product of the positive part of the first
    aggregation of the first product, of arguments that agree. -/
theorem algebraic : Cert.algebraic_KernelIdeal_ReferenceIdeal := by
  intro m ρ m' ρ' _ hagree
  refine ⟨fun c => layer64 (m ((c.tc : Thread Cert.KernelIdeal.nD Cert.KernelIdeal.τ).loc Cert.KernelIdeal.main_arg1))
      (prodB (relu128 (layer128 (m ((c.tc : Thread Cert.KernelIdeal.nD Cert.KernelIdeal.τ).loc Cert.KernelIdeal.main_arg1)) (prodA (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg3)))) (m ((c.tc : Thread Cert.KernelIdeal.nD Cert.KernelIdeal.τ).loc Cert.KernelIdeal.main_arg4)))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.W8_result m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Shape.res_products, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
